-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x128 : Shape := ⟨2, ![1, 128]⟩

abbrev nBuf : Space → Nat
  | .hbm => 90
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x128, .f32⟩
  | .hbm, ⟨89, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is two tiled matrix products among stretches of host operations.  Its run from the launch memory ends, on
  every core, with every unscoped buffer at the contents obtained by folding the host stretches and the two regions'
  write-backs over the launch memory; the result array is one of those buffers, so it ends at that fold's value, and the
  seven argument arrays end as launched.
-/
import proofs.«146719_j38500086841928_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the final fold's
    contents of its buffer, and each argument array as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Named

end
-- ==== Proof.Spec.lean ====
/-
  The two programs as compositions of the same named pieces.

  A graph of N = 50000 nodes has E = 800000 weighted edges (source row, destination row of the index array) to which
  one self-loop of weight 1 per node is appended: 850000 edge slots.  With deg(i) the sum of the weights of the slots
  whose destination is i and dinv = deg^(-1/2) where deg > 0 (else 0), slot e carries the coefficient
  coeff(e) = dinv(src e) · w(e) · dinv(dst e).  A layer sends each slot the row of its source node, scales it by the
  slot's coefficient, and adds it into the row of its destination node.  An out-of-range source is clamped into range
  by the row lookup and an out-of-range destination contributes nothing; a negative index first has N added.

  Both programs compute   H = relu(aggregate(x · W1) + b1)   in the same way.  The reference then multiplies by W2 and
  aggregates at width 128; the kernel aggregates at width 64 and multiplies by W2 afterwards.  Both add b2.
-/
import proofs.«146719_j38500086841928_2_alg».proof.KernelIdeal
import proofs.«146719_j38500086841928_2_alg».proof.ReferenceIdeal

noncomputable section

namespace Cert.Gcn

open Idealize.ShloMosaic
open Cert.KernelIdeal

variable [Cert.KernelIdeal.Facts] [Cert.ReferenceIdeal.Facts]
open Cert.KernelIdeal.Facts₀ Cert.KernelIdeal.Facts

variable {F : FTy → Type} [FloatOps F]

/-- The source node of every edge slot: row 0 of the index array, then the nodes themselves. -/
def srcIds (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- The destination node of every edge slot: row 1 of the index array, then the nodes themselves. -/
def dstIds (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- The weight of every edge slot: the given weights, then 1 for each self-loop. -/
def weights (ew : FVec F S800000 .f32) : FVec F S850000 .f32 :=
  concatenate S850000 0 [⟨S800000, ew⟩, ⟨S50000, broadcastInDim S50000 ![] bcast_S_S50000 (constant S_ .f32 0x3F800000#32)⟩]
    concatenates_S800000_S50000_S850000_d0

/-- A vector of 850000 entries kept as a column. -/
def asColumn {α : Type} (v : S850000.Idx → α) : S850000x1.Idx → α := broadcastInDim S850000x1 ![0] bcast_S850000_S850000x1_0 v

/-- A negative index counts from the end: N is added to it. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- deg(i): the sum of the weights of the slots whose destination is i. -/
def degree (ei : IVec S2x800000 32) (ew : FVec F S800000 .f32) : FVec F S50000 .f32 :=
  Host.scatterAdd scatter_S50000_S850000x1_S850000_n_0_0_1 (broadcastInDim S50000 ![] bcast_S_S50000 (constant S_ .f32 0x00000000#32))
    (asColumn (dstIds ei)) (weights ew)

/-- dinv(i) = deg(i)^(-1/2) where deg(i) > 0, else 0. -/
def dinv (ei : IVec S2x800000 32) (ew : FVec F S800000 .f32) : FVec F S50000 .f32 :=
  select (cmpf .ogt (degree ei ew) (broadcastInDim S50000 ![] bcast_S_S50000 (constant S_ .f32 0x00000000#32)))
    (Host.rsqrt (degree ei ew)) (broadcastInDim S50000 ![] bcast_S_S50000 (id (constant S_ .f32 0x00000000#32)))

/-- coeff(e) = dinv(src e) · w(e) · dinv(dst e). -/
def coeff (ei : IVec S2x800000 32) (ew : FVec F S800000 .f32) : FVec F S850000 .f32 :=
  mulf (mulf (Host.gather gather_S50000_S850000x1_S850000_n_0_n_n_0_1_1 (dinv ei ew) (asColumn (wrap (srcIds ei)))) (weights ew))
    (Host.gather gather_S50000_S850000x1_S850000_n_0_n_n_0_1_1 (dinv ei ew) (asColumn (wrap (dstIds ei))))

/-- One aggregation at width 64: every slot's source row of `h`, scaled by the slot's coefficient, added into the
    slot's destination row. -/
def aggregate64 (h : FVec F S50000x64 .f32) (ei : IVec S2x800000 32) (nrm : FVec F S850000 .f32) : FVec F S50000x64 .f32 :=
  Host.scatterAdd scatter_S50000x64_S850000x1_S850000x64_1_0_0_1 (broadcastInDim S50000x64 ![] bcast_S_S50000x64 (constant S_ .f32 0x00000000#32))
    (asColumn (dstIds ei))
    (mulf (Host.gather gather_S50000x64_S850000x1_S850000x64_1_0_n_n_0_1_164 h (asColumn (wrap (srcIds ei))))
      (broadcastInDim S850000x64 ![0, 1] bcast_S850000x1_S850000x64_0_1 (asColumn nrm)))

/-- The hidden layer from the first product: relu(aggregate(h1) + b1). -/
def hidden (h1 : FVec F S50000x64 .f32) (ei : IVec S2x800000 32) (nrm : FVec F S850000 .f32) (b1 : FVec F S64 .f32) : FVec F S50000x64 .f32 :=
  maximumf (addf (aggregate64 h1 ei nrm) (broadcastInDim S50000x64 ![0, 1] bcast_S1x64_S50000x64_0_1 (broadcastInDim S1x64 ![1] bcast_S64_S1x64_1 b1)))
    (broadcastInDim S50000x64 ![] bcast_S_S50000x64 (constant S_ .f32 0x00000000#32))

/-- The same aggregation at width 128 (the reference's second layer). -/
def aggregate128 (z : FVec F S50000x128 .f32) (ei : IVec S2x800000 32) (nrm : FVec F S850000 .f32) : FVec F S50000x128 .f32 :=
  Host.scatterAdd Cert.ReferenceIdeal.scatter_S50000x128_S850000x1_S850000x128_1_0_0_1
    (broadcastInDim S50000x128 ![] Cert.ReferenceIdeal.Facts₀.bcast_S_S50000x128 (constant S_ .f32 0x00000000#32))
    (asColumn (dstIds ei))
    (mulf (Host.gather Cert.ReferenceIdeal.gather_S50000x128_S850000x1_S850000x128_1_0_n_n_0_1_1128 z (asColumn (wrap (srcIds ei))))
      (broadcastInDim Cert.ReferenceIdeal.S850000x128 ![0, 1] Cert.ReferenceIdeal.Facts₀.bcast_S850000x1_S850000x128_0_1 (asColumn nrm)))

/-- The reference's result: multiply the hidden layer by W2, aggregate at width 128, add b2. -/
def refOut (x : FVec F S50000x128 .f32) (ei : IVec S2x800000 32) (ew : FVec F S800000 .f32) (W1 : FVec F S128x64 .f32) (b1 : FVec F S64 .f32)
    (W2 : FVec F S64x128 .f32) (b2 : FVec F S128 .f32) : FVec F S50000x128 .f32 :=
  addf (aggregate128 (Host.dotGeneral Cert.ReferenceIdeal.dot_S50000x64_S64x128_S50000x128_1_0_0_1_n_n none
      (hidden (Host.dotGeneral Cert.ReferenceIdeal.dot_S50000x128_S128x64_S50000x64_1_0_0_1_n_n none x W1) ei (coeff ei ew) b1) W2) ei (coeff ei ew))
    (broadcastInDim S50000x128 ![0, 1] Cert.ReferenceIdeal.Facts₀.bcast_S1x128_S50000x128_0_1 (broadcastInDim S1x128 ![1] Cert.ReferenceIdeal.Facts₀.bcast_S128_S1x128_1 b2))

end Cert.Gcn

end
-- ==== Proof.KernelRead.lean ====
/-
  The idealized kernel's buffers at its two regions' entries, as the named pieces of the launch arguments.

  Before the first tiled product the host operations have computed the edge slots' source and destination nodes and
  their coefficients.  The first product writes only its own output array.  Before the second product the host
  operations have aggregated the first product's rows, added b1, applied relu, aggregated again at width 64, and kept
  b2 as a row.
-/
import proofs.«146719_j38500086841928_2_alg».proof.Proof.Gen.KernelIdeal.Frame
import proofs.«146719_j38500086841928_2_alg».proof.Proof.Spec
import Idealize.ShloMosaic.Lib.StableHlo.Run

set_option maxRecDepth 16384

noncomputable section

namespace Cert.KernelIdeal.ReadBack

open Cert.KernelIdeal Cert.KernelIdeal.Gen Cert.Gcn
open Idealize.ShloMosaic Idealize.ShloMosaic.TcCoe Idealize.SL.Sem Idealize.ShloMosaic.StableHlo
open Cert.KernelIdeal.Facts₀ Cert.KernelIdeal.Facts

variable [Cert.ReferenceIdeal.Facts]
variable {F : FTy → Type} [FloatOps F]
variable (m : (ℓ : Loc nD τ sig) → Buf (Elt F) ℓ) (ρ : Dev nD → PrngReg)

/-! ## At the first product's entry -/

set_option maxHeartbeats 4000000 in
/-- The slots' source nodes. -/
theorem entry0_src (c : Dev nD) : W3 m ρ c (Proc.devRef .tc main_v3) = srcIds (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The slots' destination nodes. -/
theorem entry0_dst (c : Dev nD) : W3 m ρ c (Proc.devRef .tc main_v6) = dstIds (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 8000000 in
/-- The slots' coefficients. -/
theorem entry0_coeff (c : Dev nD) : W3 m ρ c (Proc.devRef .tc main_v31) = coeff (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  after_results_simp
  rfl

set_option maxHeartbeats 4000000 in
/-- An argument array no host operation writes. -/
theorem entry0_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

set_option maxHeartbeats 4000000 in
/-- An argument array no host operation writes. -/
theorem entry0_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp

set_option maxHeartbeats 4000000 in
/-- An argument array no host operation writes. -/
theorem entry0_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp

set_option maxHeartbeats 4000000 in
/-- An argument array no host operation writes. -/
theorem entry0_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp

set_option maxHeartbeats 4000000 in
/-- An argument array no host operation writes. -/
theorem entry0_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp

/-! ## Across the first product: only its output array changes -/

theorem exit0_src (c : Dev nD) : W4 m ρ c (Proc.devRef .tc main_v3) = srcIds (m ((c : Thread nD τ).loc main_arg1)) :=
  (W4_of_ne m ρ c main_v3 (by decide)).trans (entry0_src m ρ c)
theorem exit0_dst (c : Dev nD) : W4 m ρ c (Proc.devRef .tc main_v6) = dstIds (m ((c : Thread nD τ).loc main_arg1)) :=
  (W4_of_ne m ρ c main_v6 (by decide)).trans (entry0_dst m ρ c)
theorem exit0_coeff (c : Dev nD) : W4 m ρ c (Proc.devRef .tc main_v31) = coeff (m ((c : Thread nD τ).loc main_arg1)) (m ((c : Thread nD τ).loc main_arg2)) :=
  (W4_of_ne m ρ c main_v31 (by decide)).trans (entry0_coeff m ρ c)
theorem exit0_arg4 (c : Dev nD) : W4 m ρ c (Proc.devRef .tc main_arg4) = (m ((c : Thread nD τ).loc main_arg4)) :=
  (W4_of_ne m ρ c main_arg4 (by decide)).trans (entry0_arg4 m ρ c)
theorem exit0_arg5 (c : Dev nD) : W4 m ρ c (Proc.devRef .tc main_arg5) = (m ((c : Thread nD τ).loc main_arg5)) :=
  (W4_of_ne m ρ c main_arg5 (by decide)).trans (entry0_arg5 m ρ c)
theorem exit0_arg6 (c : Dev nD) : W4 m ρ c (Proc.devRef .tc main_arg6) = (m ((c : Thread nD τ).loc main_arg6)) :=
  (W4_of_ne m ρ c main_arg6 (by decide)).trans (entry0_arg6 m ρ c)

/-- The first product's output array is what its write-backs leave. -/
theorem exit0_product (c : Dev nD) : W4 m ρ c (Proc.devRef .tc main_v32) = (dat0 (V3 m ρ) c).arrAt 2 cfg0.N :=
  W4_arr m ρ c 2

/-! ## At the second product's entry -/

set_option maxHeartbeats 16000000 in
/-- The second product's left operand: the hidden layer of the first product's output, aggregated at width 64. -/
theorem entry1_left (c : Dev nD) :
    W7 m ρ c (Proc.devRef .tc main_v62)
      = aggregate64 (hidden (W4 m ρ c (Proc.devRef .tc main_v32)) (m ((c : Thread nD τ).loc main_arg1)) (coeff (m ((c : Thread nD τ).loc main_arg1)) (m ((c : Thread nD τ).loc main_arg2))) (m ((c : Thread nD τ).loc main_arg4)))
          (m ((c : Thread nD τ).loc main_arg1)) (coeff (m ((c : Thread nD τ).loc main_arg1)) (m ((c : Thread nD τ).loc main_arg2))) := by
  show StableHlo.after hostOps1_2 (StableHlo.after hostOps1_1 (StableHlo.after hostOps1 (W4 m ρ c))) (Proc.devRef .tc main_v62) = _
  after_results_simp
  rw [exit0_src, exit0_dst, exit0_coeff, exit0_arg4]
  rfl

set_option maxHeartbeats 4000000 in
/-- The second product's right operand is W2 as launched. -/
theorem entry1_right (c : Dev nD) : W7 m ρ c (Proc.devRef .tc main_arg5) = (m ((c : Thread nD τ).loc main_arg5)) := by
  show StableHlo.after hostOps1_2 (StableHlo.after hostOps1_1 (StableHlo.after hostOps1 (W4 m ρ c))) (Proc.devRef .tc main_arg5) = _
  after_results_simp
  exact exit0_arg5 m ρ c

set_option maxHeartbeats 4000000 in
/-- The bias of the second product: b2 kept as a row. -/
theorem entry1_bias (c : Dev nD) :
    W7 m ρ c (Proc.devRef .tc main_v63) = shapeCast S1x128 (m ((c : Thread nD τ).loc main_arg6)) Facts₀.shapeCasts_S128_S1x128 := by
  show StableHlo.after hostOps1_2 (StableHlo.after hostOps1_1 (StableHlo.after hostOps1 (W4 m ρ c))) (Proc.devRef .tc main_v63) = _
  after_results_simp
  rw [exit0_arg6]
  rfl

/-- The result array is what the second product's write-backs leave. -/
theorem exit1_product (c : Dev nD) : W8 m ρ c (Proc.devRef .tc main_v64) = (dat1 (V7 m ρ) c).arrAt 3 cfg1.N :=
  W8_arr m ρ c 3

end Cert.KernelIdeal.ReadBack

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.RegionValues.lean ====
/-
  What each of the kernel's two tiled regions leaves in its output array, as one function of the arrays the region
  finds on entry.

  Region 0 multiplies a [50000, 128] array by a [128, 64] array, ten row blocks of 5000 rows at a time: the block of
  the output at grid point t is the product of rows [5000 t, 5000 t + 5000) of the left array with the whole right
  array.  The ten blocks tile the 50000 rows, so the output array ends holding the ordinary product, entry by entry.
  Region 1 does the same for a [50000, 64] array times a [64, 128] array and adds a [1, 128] row to every row.

  Both are stated over the extended reals and for an arbitrary contents of the buffers at the region's entry.
-/
import proofs.«146719_j38500086841928_2_alg».proof.Proof.Gen.KernelIdeal.Frame
import proofs.«146719_j38500086841928_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- the ordinary product of an [a, n] and an [n, b] array of extended reals, entry by entry -/
def mm {a n b : ℕ} (X : (⟨2, ![a, n]⟩ : Shape).Idx → EReal) (W : (⟨2, ![n, b]⟩ : Shape).Idx → EReal) :
    (⟨2, ![a, b]⟩ : Shape).Idx → EReal := fun i => ∑ k : Fin n, X (ix2 (i 0) k) * W (ix2 k (i 1))

/-- The product read at an index. -/
theorem mm_apply {a n b : ℕ} (X : (⟨2, ![a, n]⟩ : Shape).Idx → EReal) (W : (⟨2, ![n, b]⟩ : Shape).Idx → EReal)
    (i : (⟨2, ![a, b]⟩ : Shape).Idx) : mm X W i = ∑ k : Fin n, X (ix2 (i 0) k) * W (ix2 k (i 1)) := rfl

/-- The origin of a rank-2 array, however its zeros are spelt. -/
theorem origin2 : (![0, 0] : Fin 2 → Nat) = fun _ => 0 := funext fun a => by fin_cases a <;> rfl

/-! ## Region 0: a [50000, 128] array times a [128, 64] array, by blocks of 5000 rows -/

/-- The body's result on a block, at an entry: row p of the left block against column q of the right array. -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.PlainMatmul.zero_acc_apply Facts₀.dot_S5000x128_S128x64_S5000x64_1_0_0_1_n_n_wf none
    (truncf .bf16 x0 Facts₀.bitsLt_bf16_f32) (truncf .bf16 x1 Facts₀.bitsLt_bf16_f32) p q

/-- The same at any index of the block. -/
theorem pay0_at (x0 : Vec Ideal S5000x128 .f32) (x1 : Vec Ideal S128x64 .f32) (j : S5000x64.Idx) :
    k0_pay1 (F := Ideal) x0 x1 j = ∑ k : Fin 128, x0 (ix2 (j 0) k) * x1 (ix2 k (j 1)) := by
  obtain ⟨p, q, rfl⟩ : ∃ (p : Fin 5000) (q : Fin 64), j = ix2 p q := ⟨j 0, j 1, eq_ix2 j⟩
  exact pay0_apply x0 x1 p q

/-- The printed index maps, decided over the ten grid points: the left window and the output move with the point along
    the rows, the right window stays at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left window's block at point t is rows 5000 t … 5000 t + 4999 of the left array. -/
theorem left0_apply (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c main_arg0 : S50000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The right window's block at every point is the whole right array. -/
theorem right0_apply (c : Dev nD) (t : Fin cfg0.N) (x : S128x64.Idx) :
    (iblk0 V c 1 t : Vec Ideal S128x64 .f32) x = (V c main_arg3 : S128x64.Idx → EReal) x := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t (0 : Fin 2) * 128 + 1 * (x 0).val = (x 0).val; omega
  | ⟨1, _⟩ => show win0_1.index t (1 : Fin 2) * 64 + 1 * (x 1).val = (x 1).val; omega

/-- Where an entry of the output's block at point t sits in the output array: 5000 t rows down, the same column. -/
theorem out0_emb (t : Fin cfg0.N) (j : S5000x64.Idx) :
    ((((cfg0.win 2).blk t).view.emb j) 0).val = 5000 * t.val + (j 0).val
      ∧ ((((cfg0.win 2).blk t).view.emb j) 1).val = (j 1).val := by
  obtain ⟨-, -, -, -, e4, e5⟩ := idx0 t
  constructor
  · show win0_2.index t (0 : Fin 2) * 5000 + 1 * (j 0).val = _; omega
  · show win0_2.index t (1 : Fin 2) * 64 + 1 * (j 1).val = _; omega

/-- What grid point t writes back is block t of the product of the two arrays the region finds. -/
theorem wrote0 (c : Dev nD) (t : Fin cfg0.N) :
    (dat0 (F := Ideal) V c).flushed 2 t
      = ((cfg0.win 2).blk t).view.read (Elt Ideal) (mm (a := 50000) (n := 128) (b := 64) (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x64) origin2]
  funext j
  refine (pay0_at _ _ j).trans ?_
  obtain ⟨o0, o1⟩ := out0_emb t j
  refine Eq.trans ?_ (mm_apply (a := 50000) (n := 128) (b := 64) (V c main_arg0) (V c main_arg3)
    (((cfg0.win 2).blk t).view.emb j)).symm
  refine Finset.sum_congr rfl fun k _ => ?_
  refine congrArg₂ (· * ·) (left0_apply V c t _ _ o0 rfl) ((right0_apply V c t _).trans (congrArg _ ?_))
  funext a
  apply Fin.ext
  match a with
  | ⟨0, _⟩ => rfl
  | ⟨1, _⟩ => exact o1.symm

/-- An index of the output array is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- The ten blocks of 5000 rows tile the 50000 rows: row r is in the block of point r / 5000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := rfl
  obtain ⟨t, ht⟩ : ∃ t : Fin cfg0.N, t.val = (i 0).val / 5000 :=
    ⟨⟨(i 0).val / 5000, lt_of_lt_of_eq (by omega : (i 0).val / 5000 < 10) hN.symm⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- REGION 0: the output array ends holding the product of the two arrays the region finds, entry by entry. -/
theorem region0_value (c : Dev nD) :
    (dat0 (F := Ideal) V c).arrAt 2 cfg0.N = mm (a := 50000) (n := 128) (b := 64) (V c main_arg0) (V c main_arg3) :=
  (dat0 (F := Ideal) V c).arrAt_eq_of_cover 2 _ (fun t _ => wrote0 V c t) cover0

/-! ## Region 1: a [50000, 64] array times a [64, 128] array plus a [1, 128] row, by blocks of 5000 rows -/

/-- The body's result on a block, at an entry: row p of the left block against column q of the right array, plus the
    row's entry in column q. -/
theorem pay1_apply (x0 : Vec Ideal S5000x64 .f32) (x1 : Vec Ideal S64x128 .f32) (x2 : Vec Ideal S1x128 .f32)
    (p : Fin 5000) (q : Fin 128) :
    k1_pay1 (F := Ideal) x0 x1 x2 (ix2 p q) = (∑ k : Fin 64, x0 (ix2 p k) * x1 (ix2 k q)) + x2 (ix2 (0 : Fin 1) q) := by
  have hL : shapeCast S5000x64 x0 Facts₀.shapeCasts_S5000x64_S5000x64 = x0 := shapeCast_self x0 _
  have hB : shapeCast S1x128 x2 Facts₀.shapeCasts_S1x128_S1x128 = x2 := shapeCast_self x2 _
  unfold k1_pay1
  refine (addf_apply _ _ (ix2 p q)).trans ?_
  refine congrArg₂ (· + ·) ?_ ?_
  · refine (Cert.PlainMatmul.zero_acc_apply Facts₀.dot_S5000x64_S64x128_S5000x128_1_0_0_1_n_n_wf none
      (truncf .bf16 (shapeCast S5000x64 x0 Facts₀.shapeCasts_S5000x64_S5000x64) Facts₀.bitsLt_bf16_f32)
      (truncf .bf16 x1 Facts₀.bitsLt_bf16_f32) p q).trans ?_
    refine Finset.sum_congr rfl fun k _ => ?_
    exact congrArg (· * x1 (ix2 k q)) (congrFun hL (ix2 p k))
  · refine (broadcastTo_1b_ab_apply (shapeCast S1x128 x2 Facts₀.shapeCasts_S1x128_S1x128)
      Facts₀.broadcasts_S1x128_S5000x128 p q).trans ?_
    exact congrFun hB _

/-- The same at any index of the block. -/
theorem pay1_at (x0 : Vec Ideal S5000x64 .f32) (x1 : Vec Ideal S64x128 .f32) (x2 : Vec Ideal S1x128 .f32)
    (j : S5000x128.Idx) :
    k1_pay1 (F := Ideal) x0 x1 x2 j
      = (∑ k : Fin 64, x0 (ix2 (j 0) k) * x1 (ix2 k (j 1))) + x2 (ix2 (0 : Fin 1) (j 1)) := by
  obtain ⟨p, q, rfl⟩ : ∃ (p : Fin 5000) (q : Fin 128), j = ix2 p q := ⟨j 0, j 1, eq_ix2 j⟩
  exact pay1_apply x0 x1 x2 p q

/-- The printed index maps, decided over the ten grid points: the left window and the output move with the point along
    the rows, the right window and the row stay at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left window's block at point t is rows 5000 t … 5000 t + 4999 of the left array. -/
theorem left1_apply (c : Dev nD) (t : Fin cfg1.N) (x : S5000x64.Idx) (i : S50000x64.Idx)
    (h0 : (i 0).val = 5000 * t.val + (x 0).val) (h1 : (i 1).val = (x 1).val) :
    (iblk1 V c 0 t : Vec Ideal S5000x64 .f32) x = (V c main_v62 : S50000x64.Idx → EReal) i := by
  obtain ⟨e0, e1, -⟩ := idx1 t
  unfold iblk1
  rw [View.read_apply]
  show V c main_v62 _ = V c main_v62 _
  congr 1
  funext a
  apply Fin.ext
  match a with
  | ⟨0, _⟩ => show win1_0.index t (0 : Fin 2) * 5000 + 1 * (x 0).val = (i 0).val; omega
  | ⟨1, _⟩ => show win1_0.index t (1 : Fin 2) * 64 + 1 * (x 1).val = (i 1).val; omega

/-- The right window's block at every point is the whole right array. -/
theorem right1_apply (c : Dev nD) (t : Fin cfg1.N) (x : S64x128.Idx) :
    (iblk1 V c 1 t : Vec Ideal S64x128 .f32) x = (V c main_arg5 : S64x128.Idx → EReal) x := by
  obtain ⟨-, -, e2, e3, -⟩ := idx1 t
  unfold iblk1
  rw [View.read_apply]
  show V c main_arg5 _ = V c main_arg5 _
  congr 1
  funext a
  apply Fin.ext
  match a with
  | ⟨0, _⟩ => show win1_1.index t (0 : Fin 2) * 64 + 1 * (x 0).val = (x 0).val; omega
  | ⟨1, _⟩ => show win1_1.index t (1 : Fin 2) * 128 + 1 * (x 1).val = (x 1).val; omega

/-- The row's window at every point is the whole row. -/
theorem row1_apply (c : Dev nD) (t : Fin cfg1.N) (x : S1x128.Idx) :
    (iblk1 V c 2 t : Vec Ideal S1x128 .f32) x = (V c main_v63 : S1x128.Idx → EReal) x := by
  obtain ⟨-, -, -, -, e4, e5, -⟩ := idx1 t
  unfold iblk1
  rw [View.read_apply]
  show V c main_v63 _ = V c main_v63 _
  congr 1
  funext a
  apply Fin.ext
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- Where an entry of the output's block at point t sits in the output array: 5000 t rows down, the same column. -/
theorem out1_emb (t : Fin cfg1.N) (j : S5000x128.Idx) :
    ((((cfg1.win 3).blk t).view.emb j) 0).val = 5000 * t.val + (j 0).val
      ∧ ((((cfg1.win 3).blk t).view.emb j) 1).val = (j 1).val := by
  obtain ⟨-, -, -, -, -, -, e6, e7⟩ := idx1 t
  constructor
  · show win1_3.index t (0 : Fin 2) * 5000 + 1 * (j 0).val = _; omega
  · show win1_3.index t (1 : Fin 2) * 128 + 1 * (j 1).val = _; omega

/-- What grid point t writes back is block t of the product of the two arrays the region finds, plus the row. -/
theorem wrote1 (c : Dev nD) (t : Fin cfg1.N) :
    (dat1 (F := Ideal) V c).flushed 3 t
      = ((cfg1.win 3).blk t).view.read (Elt Ideal)
          (fun i => mm (a := 50000) (n := 64) (b := 128) (V c main_v62) (V c main_arg5) i
            + V c main_v63 (ix2 (0 : Fin 1) (i 1))) := by
  show (cfg1.win 3).cut (grid1.coords t) ((dat1 V c).after 3 t) = _
  rw [after1_3]
  unfold out1_3
  rw [View.canon_unit_zero origin2]
  simp only [View.ld_unit_zero (S := S5000x64) origin2, View.ld_unit_zero (S := S64x128) origin2,
    View.ld_unit_zero (S := S1x128) origin2]
  funext j
  refine (pay1_at _ _ _ j).trans ?_
  obtain ⟨o0, o1⟩ := out1_emb t j
  show _ = mm (a := 50000) (n := 64) (b := 128) (V c main_v62) (V c main_arg5) (((cfg1.win 3).blk t).view.emb j)
      + V c main_v63 (ix2 (0 : Fin 1) ((((cfg1.win 3).blk t).view.emb j) 1))
  refine congrArg₂ (· + ·) ?_ ?_
  · refine Eq.trans ?_ (mm_apply (a := 50000) (n := 64) (b := 128) (V c main_v62) (V c main_arg5)
      (((cfg1.win 3).blk t).view.emb j)).symm
    refine Finset.sum_congr rfl fun k _ => ?_
    refine congrArg₂ (· * ·) (left1_apply V c t _ _ o0 rfl) ((right1_apply V c t _).trans (congrArg _ ?_))
    funext a
    apply Fin.ext
    match a with
    | ⟨0, _⟩ => rfl
    | ⟨1, _⟩ => exact o1.symm
  · refine (row1_apply V c t _).trans (congrArg _ ?_)
    funext a
    apply Fin.ext
    match a with
    | ⟨0, _⟩ => rfl
    | ⟨1, _⟩ => exact o1.symm

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v64).slice (win1_3.rect t)).set ↔ _
  rw [View.set_slice_whole, Rect.mem_set_unit]
  exact Iff.rfl

/-- The ten blocks of 5000 rows tile the 50000 rows: row r is in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := rfl
  obtain ⟨t, ht⟩ : ∃ t : Fin cfg1.N, t.val = (i 0).val / 5000 :=
    ⟨⟨(i 0).val / 5000, lt_of_lt_of_eq (by omega : (i 0).val / 5000 < 10) hN.symm⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- REGION 1: the output array ends holding the product of the two arrays the region finds plus the row the region
    finds, entry by entry. -/
theorem region1_value (c : Dev nD) :
    (dat1 (F := Ideal) V c).arrAt 3 cfg1.N
      = fun i => mm (a := 50000) (n := 64) (b := 128) (V c main_v62) (V c main_arg5) i
          + V c main_v63 (ix2 (0 : Fin 1) (i 1)) :=
  (dat1 (F := Ideal) V c).arrAt_eq_of_cover 3 _ (fun t _ => wrote1 V c t) cover1

end Cert.KernelIdeal.RegionValue

end
-- ==== Proof.KernelValue.lean ====
/-
  The idealized kernel's result as one function of its launch arguments.

  The second tiled product leaves in the result array the product of its left operand with W2, plus the row b2; its
  left operand is the width-64 aggregation of the hidden layer, and the hidden layer is built from the first tiled
  product's output, which is x · W1.
-/
import proofs.«146719_j38500086841928_2_alg».proof.Proof.KernelRead
import proofs.«146719_j38500086841928_2_alg».proof.Proof.RegionValues

set_option maxRecDepth 16384

noncomputable section

namespace Cert.Gcn

open Cert.KernelIdeal Cert.KernelIdeal.Gen Cert.KernelIdeal.ReadBack Cert.KernelIdeal.RegionValue
open Idealize.ShloMosaic Idealize.ShloMosaic.TcCoe Idealize.SL.Sem Idealize.ShloMosaic.ValueIdx

variable [Cert.ReferenceIdeal.Facts]

/-- The kernel's result: aggregate the hidden layer at width 64, multiply by W2, add b2 to every row. -/
def kernelOut (x : FVec Ideal S50000x128 .f32) (ei : IVec S2x800000 32) (ew : FVec Ideal S800000 .f32) (W1 : FVec Ideal S128x64 .f32)
    (b1 : FVec Ideal S64 .f32) (W2 : FVec Ideal S64x128 .f32) (b2 : FVec Ideal S128 .f32) : FVec Ideal S50000x128 .f32 :=
  fun i => mm (a := 50000) (n := 64) (b := 128)
      (aggregate64 (hidden (mm (a := 50000) (n := 128) (b := 64) x W1) ei (coeff ei ew) b1) ei (coeff ei ew)) W2 i
    + shapeCast S1x128 b2 Facts₀.shapeCasts_S128_S1x128 (ix2 (0 : Fin 1) (i 1))

variable (m : (ℓ : Loc nD τ sig) → Buf (Elt Ideal) ℓ) (ρ : Dev nD → PrngReg)

/-- The first product's output array after its region: x · W1 of the launch arguments. -/
theorem first_product (c : Dev nD) :
    W4 m ρ c (Proc.devRef .tc main_v32)
      = mm (a := 50000) (n := 128) (b := 64) (m ((c : Thread nD τ).loc main_arg0)) (m ((c : Thread nD τ).loc main_arg3)) := by
  rw [exit0_product, region0_value (V3 m ρ) c]
  dsimp only [V3]
  rw [entry0_arg0, entry0_arg3]

/-- The result array after the run. -/
theorem kernel_value (c : Dev nD) :
    W8 m ρ c (Proc.devRef .tc main_v64)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [exit1_product, region1_value (V7 m ρ) c]
  dsimp only [V7]
  rw [entry1_left, entry1_right, entry1_bias, first_product]
  rfl

end Cert.Gcn

end
-- ==== Proof.RefTerm.lean ====
/-
  The reference's run ends with its result array at `refOut` of the launch arguments: the operations' composed term
  is, piece by piece, the composition of the named pieces.
-/
import proofs.«146719_j38500086841928_2_alg».proof.Proof.Spec
import proofs.«146719_j38500086841928_2_alg».proof.Proof.Gen.ReferenceIdeal.Run

noncomputable section

namespace Cert.Gcn

open Idealize.ShloMosaic Idealize.ShloMosaic.TcCoe Idealize.SL.Sem

variable [Cert.KernelIdeal.Facts] [Cert.ReferenceIdeal.Facts]
variable {F : FTy → Type} [FloatOps F]

set_option maxRecDepth 16384 in
set_option maxHeartbeats 4000000 in
/-- The composed term of the reference's operations is the composition of the named pieces. -/
theorem ref_term (m : (ℓ : Loc Cert.ReferenceIdeal.nD Cert.ReferenceIdeal.τ Cert.ReferenceIdeal.sig) → Buf (Elt F) ℓ) (c : Dev Cert.ReferenceIdeal.nD) :
    Cert.ReferenceIdeal.Value.res_main_v66 (F := F) m c
      = refOut (F := F) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v66
  rfl

end Cert.Gcn

end
-- ==== Proof.Reals.lean ====
/-
  Extended reals that are real numbers.

  The two programs agree only where distributivity holds, and on the extended reals x · (a + b) = x · a + x · b can fail
  at the infinities.  Every value the programs compute from finite inputs is a real number; this file names that
  property and shows it closed under the operations the programs use: sums, products, finite sums, maxima.
-/
import Mathlib.Data.EReal.Operations
import Mathlib.Algebra.BigOperators.Group.Finset.Basic

open scoped BigOperators

namespace Cert.Reals

/-- An extended real that is (the image of) a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rwa [max_eq_right h]
  · rwa [max_eq_left h]

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a t ha ih =>
    rw [Finset.sum_insert ha]
    exact (h a (Finset.mem_insert_self a t)).add (ih fun i hi => h i (Finset.mem_insert_of_mem hi))

/-- The coercion of the reals into the extended reals commutes with a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

end Cert.Reals
-- ==== Proof.FiniteInputs.lean ====
/-
  From the precondition to "every entry of every float input is a real number".

  The precondition is the conjunction, over the six float inputs, of "every entry x has |x| < +∞".  On the extended
  reals |x| = max x (-x), and max x (-x) < ⊤ excludes both x = ⊤ (then x itself is ⊤) and x = ⊥ (then -x is ⊤);
  what is left is the image of a real number.  A conjunction of truth values that is true has every conjunct true, and
  an and-reduction over all axes that is true has every element true, so the fact reaches each entry of each input.
-/
import proofs.«146719_j38500086841928_2_alg».proof.Pre_finite_inputs
import proofs.«146719_j38500086841928_2_alg».proof.Proof.Reals
import Idealize.ShloMosaic.Lib.ReduceAll
import Idealize.ShloMosaic.Lib.ValueIdx
import Idealize.ShloMosaic.PureOps.Ideal

namespace Cert.FiniteInputs

open Idealize.ShloMosaic
open Cert.Pre_finite_inputs
open Cert.Reals

/-- The shape with no axes has exactly one index. -/
instance : Subsingleton S_.Idx := ⟨fun a b => funext fun d => d.elim0⟩

/-- One value: if |x| < +∞ holds, then x is a real number.  Both infinities have |x| = ⊤, which is not below ⊤. -/
theorem isReal_of_abs_lt_inf (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One input of any shape: if the and-reduction over all axes of "|entry| < +∞" is true, then that comparison is
    true at every index, so every entry is a real number. -/
theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu
          ValueIdx.ix0 = 1#1) :
    ∀ i, IsReal (a i) := by
  intro i
  have hi := Host.reduce_andi_all _ init hr hu ValueIdx.ix0 e i
  exact isReal_of_abs_lt_inf (a i) hi

variable [Cert.Pre_finite_inputs.Facts]

/-- Under the precondition, every entry of each of the six float inputs is a real number. -/
theorem reals_of_pre (a0 : FVec Ideal S50000x128 .f32) (a1 : IVec S2x800000 32) (a2 : FVec Ideal S800000 .f32)
    (a3 : FVec Ideal S128x64 .f32) (a4 : FVec Ideal S64 .f32) (a5 : FVec Ideal S64x128 .f32)
    (a6 : FVec Ideal S128 .f32)
    (h : Cert.Pre_finite_inputs.fn (F := Ideal) a0 a1 a2 a3 a4 a5 a6 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [Cert.Pre_finite_inputs.fn, Cert.Pre_finite_inputs.fn_part1, andi] at h0
  simp only [IntOp.andi_eq_one] at h0
  obtain ⟨⟨⟨⟨⟨e0, e2⟩, e3⟩, e4⟩, e5⟩, e6⟩ := h0
  exact ⟨reals_of_all a0 _ _ _ _ e0, reals_of_all a2 _ _ _ _ e2, reals_of_all a3 _ _ _ _ e3,
    reals_of_all a4 _ _ _ _ e4, reals_of_all a5 _ _ _ _ e5, reals_of_all a6 _ _ _ _ e6⟩

end Cert.FiniteInputs
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.AggregateAt.lean ====
/-
  The aggregation step of both programs read at an entry.

  Every edge slot e sends the row of its source node, scaled by the slot's coefficient, into the row of its
  destination node.  Read at the entry (p, k) of the result this is the sum, over the slots e whose destination word
  denotes p, of the operand's entry (source row of e, k) times the coefficient of e.  The slots that contribute to row p
  and the source row of a slot depend on the index array alone: they are the same two functions at width 64 and at
  width 128.
-/
import proofs.«146719_j38500086841928_2_alg».proof.Proof.Spec
import proofs.«146719_j38500086841928_2_alg».proof.Proof.LibRowTakeAdd
import proofs.«146719_j38500086841928_2_alg».proof.Proof.LibKeepdims
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.Gcn

open Idealize.ShloMosaic Idealize.ShloMosaic.ValueIdx
open Cert.KernelIdeal
open Cert.RowTakeAdd

variable [Cert.KernelIdeal.Facts] [Cert.ReferenceIdeal.Facts]
open Cert.KernelIdeal.Facts₀ Cert.KernelIdeal.Facts

/-- The destination word of slot e. -/
def dstWord (ei : IVec S2x800000 32) (e : Fin 850000) : BitVec 32 := asColumn (dstIds ei) (ix2 e (0 : Fin 1))

/-- The row of the operand slot e reads: its source word, wrapped, read signed and clamped into [0, 49999]. -/
def srcRow (ei : IVec S2x800000 32) (e : Fin 850000) : Fin 50000 :=
  takeRow 50000 (by decide) (asColumn (wrap (srcIds ei)) (ix2 e (0 : Fin 1)))

/-- A vector kept as a column reads, at (e, 0), its entry e. -/
theorem asColumn_apply {α : Type} (v : S850000.Idx → α) (e : Fin 850000) :
    asColumn v (ix2 e (0 : Fin 1)) = v (ix1 e) := by
  unfold asColumn
  exact Cert.Keepdims.host_column_apply (a := 850000) v bcast_S850000_S850000x1_0 e (0 : Fin 1)

/-- The aggregation at width 64 read at (p, k): the sum, over the slots whose destination word denotes p, of the
    operand at (source row of the slot, k) times the slot's coefficient. -/
theorem aggregate64_apply (h : FVec Ideal S50000x64 .f32) (ei : IVec S2x800000 32) (nrm : FVec Ideal S850000 .f32)
    (p : Fin 50000) (k : Fin 64) :
    aggregate64 (F := Ideal) h ei nrm (ix2 p k)
      = ∑ e ∈ Finset.univ.filter (fun e : Fin 850000 => (dstWord ei e).toInt = (p.val : Int)),
          h (ix2 (srcRow ei e) k) * nrm (ix1 e) := by
  unfold aggregate64
  refine (scatterAdd_rows_apply (N := 50000) (R := 850000) (C := 64)
    scatter_S50000x64_S850000x1_S850000x64_1_0_0_1_wf _ _ _ p k).trans ?_
  have hz : broadcastInDim S50000x64 ![] bcast_S_S50000x64 (constant (F := Ideal) S_ .f32 0x00000000#32) (ix2 p k)
      = (0 : EReal) := by
    rw [broadcastInDim_apply ![] bcast_S_S50000x64 _ (ix2 p k) ix0 (fun a => a.elim0), constant_apply,
      Ideal.ofBits_zero_f32]
  rw [hz, zero_add]
  refine Finset.sum_congr rfl fun e _ => ?_
  have hg : Host.gather gather_S50000x64_S850000x1_S850000x64_1_0_n_n_0_1_164 h (asColumn (wrap (srcIds ei))) (ix2 e k)
      = h (ix2 (srcRow ei e) k) :=
    gather_rows_apply (N := 50000) (R := 850000) (C := 64) (by decide)
      gather_S50000x64_S850000x1_S850000x64_1_0_n_n_0_1_164_wf h (asColumn (wrap (srcIds ei))) e k
  have hb : broadcastInDim S850000x64 ![0, 1] bcast_S850000x1_S850000x64_0_1 (asColumn nrm) (ix2 e k) = nrm (ix1 e) :=
    (Cert.Keepdims.host_column_repeat_apply (a := 850000) (b := 64) (asColumn nrm) bcast_S850000x1_S850000x64_0_1 e k).trans
      (asColumn_apply nrm e)
  show Host.gather gather_S50000x64_S850000x1_S850000x64_1_0_n_n_0_1_164 h (asColumn (wrap (srcIds ei))) (ix2 e k)
    * broadcastInDim S850000x64 ![0, 1] bcast_S850000x1_S850000x64_0_1 (asColumn nrm) (ix2 e k) = _
  rw [hg, hb]

/-- The aggregation at width 128 read at (p, q): the same sum over the same slots, with the same source rows. -/
theorem aggregate128_apply (z : FVec Ideal S50000x128 .f32) (ei : IVec S2x800000 32) (nrm : FVec Ideal S850000 .f32)
    (p : Fin 50000) (q : Fin 128) :
    aggregate128 (F := Ideal) z ei nrm (ix2 p q)
      = ∑ e ∈ Finset.univ.filter (fun e : Fin 850000 => (dstWord ei e).toInt = (p.val : Int)),
          z (ix2 (srcRow ei e) q) * nrm (ix1 e) := by
  unfold aggregate128
  refine (scatterAdd_rows_apply (N := 50000) (R := 850000) (C := 128)
    Cert.ReferenceIdeal.Facts₀.scatter_S50000x128_S850000x1_S850000x128_1_0_0_1_wf _ _ _ p q).trans ?_
  have hz : broadcastInDim S50000x128 ![] Cert.ReferenceIdeal.Facts₀.bcast_S_S50000x128
      (constant (F := Ideal) S_ .f32 0x00000000#32) (ix2 p q) = (0 : EReal) := by
    rw [broadcastInDim_apply ![] Cert.ReferenceIdeal.Facts₀.bcast_S_S50000x128 _ (ix2 p q) ix0 (fun a => a.elim0),
      constant_apply, Ideal.ofBits_zero_f32]
  rw [hz, zero_add]
  refine Finset.sum_congr rfl fun e _ => ?_
  have hg : Host.gather Cert.ReferenceIdeal.gather_S50000x128_S850000x1_S850000x128_1_0_n_n_0_1_1128 z
      (asColumn (wrap (srcIds ei))) (ix2 e q) = z (ix2 (srcRow ei e) q) :=
    gather_rows_apply (N := 50000) (R := 850000) (C := 128) (by decide)
      Cert.ReferenceIdeal.Facts₀.gather_S50000x128_S850000x1_S850000x128_1_0_n_n_0_1_1128_wf z
      (asColumn (wrap (srcIds ei))) e q
  have hb : broadcastInDim Cert.ReferenceIdeal.S850000x128 ![0, 1]
      Cert.ReferenceIdeal.Facts₀.bcast_S850000x1_S850000x128_0_1 (asColumn nrm) (ix2 e q) = nrm (ix1 e) :=
    (Cert.Keepdims.host_column_repeat_apply (a := 850000) (b := 128) (asColumn nrm)
      Cert.ReferenceIdeal.Facts₀.bcast_S850000x1_S850000x128_0_1 e q).trans (asColumn_apply nrm e)
  show Host.gather Cert.ReferenceIdeal.gather_S50000x128_S850000x1_S850000x128_1_0_n_n_0_1_1128 z
      (asColumn (wrap (srcIds ei))) (ix2 e q)
    * broadcastInDim Cert.ReferenceIdeal.S850000x128 ![0, 1]
      Cert.ReferenceIdeal.Facts₀.bcast_S850000x1_S850000x128_0_1 (asColumn nrm) (ix2 e q) = _
  rw [hg, hb]

end Cert.Gcn

end
-- ==== Proof.Realness.lean ====
/-
  Every named piece of the two programs has real entries when its inputs do.

  The pieces are built from five kinds of operation.  A lookup (gather), a broadcast and a concatenation only move
  entries: each entry of the result is some entry of an operand.  A product, a sum and a maximum of real numbers are
  real.  An accumulation (scatter-add) gives each entry the operand's entry plus a finite sum of update entries, and a
  finite sum of reals is real.  The one place where an infinity could appear is the inverse square root: it is ⊤ at 0
  and ⊥ below 0.  But it is only selected where the degree is strictly positive, and there it is 1 / √deg, a real;
  elsewhere the constant 0 is selected.
-/
import proofs.«146719_j38500086841928_2_alg».proof.Proof.Spec
import proofs.«146719_j38500086841928_2_alg».proof.Proof.Reals
import Idealize.ShloMosaic.Lib.ValueIdx
import Idealize.ShloMosaic.PureOps.Ideal
import Idealize.ShloMosaic.PureOps.Ideal.Laws

namespace Cert.Gcn

open Idealize.ShloMosaic Cert.KernelIdeal Cert.Reals

/-! ### Operations that only move entries -/

/-- Every entry of a lookup is an entry of the table. -/
theorem gather_real {s si t : Shape} {w : Nat} (d : GatherDims s si t) (x : s.Idx → EReal) (idx : IVec si w)
    (h : ∀ i, IsReal (x i)) : ∀ j, IsReal (Host.gather d x idx j) := fun _ => h _

/-- Every entry of a broadcast is an entry of its operand. -/
theorem broadcastInDim_real {s t : Shape} (dims : Fin s.rank → Fin t.rank) (hb : s.BroadcastsInDim t dims)
    (x : s.Idx → EReal) (h : ∀ i, IsReal (x i)) : ∀ j, IsReal (broadcastInDim t dims hb x j) := fun _ => h _

/-- Every entry of a concatenation is an entry of one of its pieces, whichever piece the index falls in. -/
theorem concatenate_real {t : Shape} (a : Fin t.rank) (xs : List ((s : Shape) × (s.Idx → EReal)))
    (hc : Shape.Concatenates (xs.map (·.1)) t a) (h : ∀ p ∈ xs, ∀ i, IsReal (p.2 i)) :
    ∀ j, IsReal (concatenate t a xs hc j) := by
  intro j
  unfold concatenate
  exact h _ (List.getElem_mem _) _

/-! ### Constants -/

/-- The all-zero pattern denotes the real 0. -/
theorem constant_zero_real {s : Shape} : ∀ i, IsReal (constant (F := Ideal) s .f32 0x00000000#32 i) := by
  intro i
  rw [ValueIdx.constant_apply, Ideal.ofBits_zero_f32]
  exact isReal_zero

/-- The pattern of sign 0, exponent field 127 and fraction 0 denotes the real 1. -/
theorem constant_one_real {s : Shape} : ∀ i, IsReal (constant (F := Ideal) s .f32 0x3F800000#32 i) := by
  intro i
  have h1 : Ideal.ofBits .f32 0x3F800000#32 = 1 := by
    simp [Ideal.ofBits, Ideal.ieee, -EReal.coe_mul]; norm_num
  rw [ValueIdx.constant_apply, h1]
  exact isReal_one

/-! ### Accumulation -/

/-- An accumulation's entry is the operand's entry plus a finite sum of update entries. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact (hx i).add (isReal_sum _ _ fun j _ => hu j)

/-! ### The guarded inverse square root -/

/-- A comparison of two arrays, read at an index, is the comparison of the two entries. -/
theorem cmpf_ideal_apply {s : Shape} (p : CmpFPredicate) (a b : FVec Ideal s .f32) (i : s.Idx) :
    cmpf p a b i = Ideal.cmp p (a i) (b i) := rfl

/-- The inverse square root of an array, read at an index, is the inverse square root of the entry. -/
theorem hostRsqrt_apply {s : Shape} (x : FVec Ideal s .f32) (i : s.Idx) : Host.rsqrt x i = Ideal.rsqrt (x i) := rfl

/-- Where x > 0 is selected, 1 / √x of a real x is real; elsewhere the other (real) value is selected. -/
theorem select_rsqrt_real (x zero z : EReal) (hx : IsReal x) (h0 : zero = 0) (hz : IsReal z) :
    IsReal (Scalar.select (Ideal.cmp .ogt x zero) (Ideal.rsqrt x) z) := by
  subst h0
  obtain ⟨r, rfl⟩ := hx
  by_cases hc : Ideal.cmp .ogt (r : EReal) 0 = 1#1
  · rw [hc, ValueIdx.select_one]
    have hc' : BitVec.ofBool (decide ((0 : EReal) < (r : EReal))) = 1#1 := hc
    have hpos : (0 : EReal) < (r : EReal) := by
      by_contra hn
      rw [decide_eq_false hn] at hc'
      exact absurd hc' (by decide)
    have hr : 0 < r := by exact_mod_cast hpos
    rw [Ideal.rsqrt_coe, if_neg (not_lt.mpr hr.le), if_neg hr.ne']
    exact ⟨_, rfl⟩
  · rw [ValueIdx.eq_zero_of_ne_one hc, ValueIdx.select_zero]
    exact hz

variable [Cert.KernelIdeal.Facts] [Cert.ReferenceIdeal.Facts]

/-! ### The pieces -/

/-- A column has the entries of the vector it came from. -/
theorem asColumn_real (v : S850000.Idx → EReal) (h : ∀ i, IsReal (v i)) : ∀ j, IsReal (asColumn v j) := by
  unfold asColumn
  exact broadcastInDim_real _ _ _ h

/-- The slot weights: the given weights, then ones. -/
theorem weights_real (ew : FVec Ideal S800000 .f32) (h : ∀ i, IsReal (ew i)) :
    ∀ i, IsReal (weights (F := Ideal) ew i) := by
  unfold weights
  refine concatenate_real _ _ _ ?_
  intro p hp
  simp only [List.mem_cons, List.not_mem_nil, or_false] at hp
  rcases hp with rfl | rfl
  · exact h
  · dsimp only
    exact broadcastInDim_real _ _ _ constant_one_real

/-- The degrees: 0 plus a finite sum of slot weights. -/
theorem degree_real (ei : IVec S2x800000 32) (ew : FVec Ideal S800000 .f32) (h : ∀ i, IsReal (ew i)) :
    ∀ i, IsReal (degree (F := Ideal) ei ew i) := by
  unfold degree
  exact scatterAdd_real _ _ _ _ (broadcastInDim_real _ _ _ constant_zero_real) (weights_real ew h)

/-- The inverse square roots of the degrees, 0 where the degree is not positive. -/
theorem dinv_real (ei : IVec S2x800000 32) (ew : FVec Ideal S800000 .f32) (h : ∀ i, IsReal (ew i)) :
    ∀ i, IsReal (dinv (F := Ideal) ei ew i) := by
  intro i
  unfold dinv
  rw [ValueIdx.select_apply, cmpf_ideal_apply, hostRsqrt_apply]
  exact select_rsqrt_real (degree (F := Ideal) ei ew i) _ _ (degree_real ei ew h i) Ideal.ofBits_zero_f32
    (broadcastInDim_real _ _ _ constant_zero_real i)

/-- The slot coefficients: products of two looked-up inverse square roots and a slot weight. -/
theorem coeff_real (ei : IVec S2x800000 32) (ew : FVec Ideal S800000 .f32) (h : ∀ i, IsReal (ew i)) :
    ∀ i, IsReal (coeff (F := Ideal) ei ew i) := by
  intro i
  unfold coeff
  rw [ValueIdx.mulf_apply, ValueIdx.mulf_apply]
  exact ((gather_real _ _ _ (dinv_real ei ew h) _).mul (weights_real ew h i)).mul
    (gather_real _ _ _ (dinv_real ei ew h) _)

/-- One aggregation at width 64: 0 plus a finite sum of products of a looked-up entry and a slot coefficient. -/
theorem aggregate64_real (h : FVec Ideal S50000x64 .f32) (ei : IVec S2x800000 32) (nrm : FVec Ideal S850000 .f32)
    (hh : ∀ i, IsReal (h i)) (hn : ∀ i, IsReal (nrm i)) : ∀ i, IsReal (aggregate64 (F := Ideal) h ei nrm i) := by
  unfold aggregate64
  refine scatterAdd_real _ _ _ _ (broadcastInDim_real _ _ _ constant_zero_real) ?_
  intro j
  rw [ValueIdx.mulf_apply]
  exact (gather_real _ _ _ hh j).mul (broadcastInDim_real _ _ _ (asColumn_real nrm hn) j)

/-- The hidden layer: the maximum of 0 and an aggregated entry plus a bias entry. -/
theorem hidden_real (h1 : FVec Ideal S50000x64 .f32) (ei : IVec S2x800000 32) (nrm : FVec Ideal S850000 .f32)
    (b1 : FVec Ideal S64 .f32) (hh : ∀ i, IsReal (h1 i)) (hn : ∀ i, IsReal (nrm i)) (hb : ∀ i, IsReal (b1 i)) :
    ∀ i, IsReal (hidden (F := Ideal) h1 ei nrm b1 i) := by
  intro i
  unfold hidden
  rw [ValueIdx.maximumf_apply, ValueIdx.addf_apply]
  exact ((aggregate64_real h1 ei nrm hh hn i).add
    (broadcastInDim_real _ _ _ (broadcastInDim_real _ _ _ hb) i)).max
    (broadcastInDim_real _ _ _ constant_zero_real i)

end Cert.Gcn
-- ==== Proof.LayerSwap.lean ====
/-
  The identity that joins the two second layers.

  Aggregating rows and then multiplying by a matrix, or multiplying every row by the matrix and then aggregating:
      ∑ k, (∑ e ∈ S, a e k · n e) · w k  =  ∑ e ∈ S, (∑ k, a e k · w k) · n e.
  Over the reals this is distributivity and an exchange of two finite sums.  On the extended reals distributivity can
  fail at the infinities, so the identity is stated where every entry is a real number: both sides are then the
  images of the two real expressions, which are equal.
-/
import proofs.«146719_j38500086841928_2_alg».proof.Proof.Reals
import Mathlib.Algebra.BigOperators.Ring.Finset
import Mathlib.Algebra.BigOperators.Group.Finset.Sigma
import Mathlib.Tactic.Ring

open scoped BigOperators

namespace Cert.Reals

/-- Aggregate-then-multiply equals multiply-then-aggregate, for real entries. -/
theorem layer_swap {ι κ : Type*} [Fintype κ] (S : Finset ι) (a : ι → κ → EReal) (n : ι → EReal) (w : κ → EReal)
    (ha : ∀ e k, IsReal (a e k)) (hn : ∀ e, IsReal (n e)) (hw : ∀ k, IsReal (w k)) :
    ∑ k, (∑ e ∈ S, a e k * n e) * w k = ∑ e ∈ S, (∑ k, a e k * w k) * n e := by
  classical
  choose a' ha' using ha
  choose n' hn' using hn
  choose w' hw' using hw
  have hL : ∑ k, (∑ e ∈ S, a e k * n e) * w k = ((∑ k, (∑ e ∈ S, a' e k * n' e) * w' k : ℝ) : EReal) := by
    rw [coe_sum]
    refine Finset.sum_congr rfl fun k _ => ?_
    rw [EReal.coe_mul, coe_sum, hw']
    refine congrArg (· * (w' k : EReal)) (Finset.sum_congr rfl fun e _ => ?_)
    rw [EReal.coe_mul, ha', hn']
  have hR : ∑ e ∈ S, (∑ k, a e k * w k) * n e = ((∑ e ∈ S, (∑ k, a' e k * w' k) * n' e : ℝ) : EReal) := by
    rw [coe_sum]
    refine Finset.sum_congr rfl fun e _ => ?_
    rw [EReal.coe_mul, coe_sum, hn']
    refine congrArg (· * (n' e : EReal)) (Finset.sum_congr rfl fun k _ => ?_)
    rw [EReal.coe_mul, ha', hw']
  rw [hL, hR]
  refine congrArg _ ?_
  simp only [Finset.sum_mul]
  rw [Finset.sum_comm]
  refine Finset.sum_congr rfl fun e _ => Finset.sum_congr rfl fun k _ => ?_
  ring

end Cert.Reals
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«146719_j38500086841928_2_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.Bridge.lean ====
/-
  The two programs' results are one function of finite inputs.

  Fix a node p and an output column q.  Write S for the edge slots whose destination is p, r(e) for the source row of
  slot e, n(e) for its coefficient, H for the hidden layer.  The kernel's entry is
      ∑ k, (∑ e ∈ S, H (r e, k) · n e) · W2 (k, q)  +  b2 q
  and the reference's is
      ∑ e ∈ S, (∑ k, H (r e, k) · W2 (k, q)) · n e  +  b2 q.
  The hidden layer, the coefficients and W2 are real numbers when the inputs are finite, so the two sums agree by the
  exchange law for real entries; the first products agree because the host's product and the tiled product are both the
  ordinary product.
-/
import proofs.«146719_j38500086841928_2_alg».proof.Proof.KernelValue
import proofs.«146719_j38500086841928_2_alg».proof.Proof.AggregateAt
import proofs.«146719_j38500086841928_2_alg».proof.Proof.Realness
import proofs.«146719_j38500086841928_2_alg».proof.Proof.LayerSwap
import proofs.«146719_j38500086841928_2_alg».proof.Proof.LibHostForms
import Idealize.ShloMosaic.Lib.Pipeline.Value

set_option maxRecDepth 16384

noncomputable section

open scoped BigOperators

namespace Cert.Gcn

open Cert.KernelIdeal Cert.KernelIdeal.RegionValue Cert.Reals
open Idealize.ShloMosaic Idealize.ShloMosaic.ValueIdx

variable [Cert.ReferenceIdeal.Facts]

/-- A vector [b] kept as a row [1, b] by a reshape reads, at (0, q), its entry q. -/
theorem row_cast_apply {α : Type} {b : ℕ} (v : (⟨1, ![b]⟩ : Shape).Idx → α) (hc : (⟨1, ![b]⟩ : Shape).ShapeCasts ⟨2, ![1, b]⟩)
    (q : Fin b) : shapeCast ⟨2, ![1, b]⟩ v hc (ix2 (0 : Fin 1) q) = v (ix1 q) :=
  shapeCast_apply v hc _ _ (by
    rw [Shape.rowMajor_val_one, Shape.rowMajor_val_two]
    show q.val = 0 * b + q.val
    omega)

/-- The reference's first product is the ordinary product. -/
theorem first_dot (x : FVec Ideal S50000x128 .f32) (W1 : FVec Ideal S128x64 .f32) :
    Host.dotGeneral (F := Ideal) Cert.ReferenceIdeal.dot_S50000x128_S128x64_S50000x64_1_0_0_1_n_n none x W1
      = mm (a := 50000) (n := 128) (b := 64) x W1 := by
  funext i
  obtain ⟨p, q, rfl⟩ : ∃ (p : Fin 50000) (q : Fin 64), i = ix2 p q := ⟨i 0, i 1, eq_ix2 i⟩
  exact Cert.HostForms.host_product_apply Cert.ReferenceIdeal.Facts₀.dot_S50000x128_S128x64_S50000x64_1_0_0_1_n_n_wf none x W1 p q

/-- The reference's second product at an entry. -/
theorem second_dot (H : FVec Ideal S50000x64 .f32) (W2 : FVec Ideal S64x128 .f32) (r : Fin 50000) (q : Fin 128) :
    Host.dotGeneral (F := Ideal) Cert.ReferenceIdeal.dot_S50000x64_S64x128_S50000x128_1_0_0_1_n_n none H W2 (ix2 r q)
      = ∑ k : Fin 64, H (ix2 r k) * W2 (ix2 k q) :=
  Cert.HostForms.host_product_apply Cert.ReferenceIdeal.Facts₀.dot_S50000x64_S64x128_S50000x128_1_0_0_1_n_n_wf none H W2 r q

/-- The two second layers from one hidden layer with real entries. -/
theorem second_layer (H : FVec Ideal S50000x64 .f32) (ei : IVec S2x800000 32) (nrm : FVec Ideal S850000 .f32) (W2 : FVec Ideal S64x128 .f32)
    (b2 : FVec Ideal S128 .f32) (hH : ∀ i, IsReal (H i)) (hn : ∀ i, IsReal (nrm i)) (hW2 : ∀ i, IsReal (W2 i)) (p : Fin 50000) (q : Fin 128) :
    mm (a := 50000) (n := 64) (b := 128) (aggregate64 H ei nrm) W2 (ix2 p q) + shapeCast S1x128 b2 Facts₀.shapeCasts_S128_S1x128 (ix2 (0 : Fin 1) q)
      = addf (aggregate128 (Host.dotGeneral Cert.ReferenceIdeal.dot_S50000x64_S64x128_S50000x128_1_0_0_1_n_n none H W2) ei nrm)
          (broadcastInDim S50000x128 ![0, 1] Cert.ReferenceIdeal.Facts₀.bcast_S1x128_S50000x128_0_1
            (broadcastInDim S1x128 ![1] Cert.ReferenceIdeal.Facts₀.bcast_S128_S1x128_1 b2)) (ix2 p q) := by
  have hL : mm (a := 50000) (n := 64) (b := 128) (aggregate64 H ei nrm) W2 (ix2 p q)
      = ∑ k : Fin 64, (∑ e ∈ Finset.univ.filter (fun e : Fin 850000 => (dstWord ei e).toInt = (p.val : Int)),
          H (ix2 (srcRow ei e) k) * nrm (ix1 e)) * W2 (ix2 k q) := by
    show ∑ k : Fin 64, aggregate64 H ei nrm (ix2 p k) * W2 (ix2 k q) = _
    exact Finset.sum_congr rfl fun k _ => by rw [aggregate64_apply]
  have hR : aggregate128 (Host.dotGeneral Cert.ReferenceIdeal.dot_S50000x64_S64x128_S50000x128_1_0_0_1_n_n none H W2) ei nrm (ix2 p q)
      = ∑ e ∈ Finset.univ.filter (fun e : Fin 850000 => (dstWord ei e).toInt = (p.val : Int)),
          (∑ k : Fin 64, H (ix2 (srcRow ei e) k) * W2 (ix2 k q)) * nrm (ix1 e) := by
    rw [aggregate128_apply]
    exact Finset.sum_congr rfl fun e _ => by rw [second_dot]
  have hb : broadcastInDim S50000x128 ![0, 1] Cert.ReferenceIdeal.Facts₀.bcast_S1x128_S50000x128_0_1
      (broadcastInDim S1x128 ![1] Cert.ReferenceIdeal.Facts₀.bcast_S128_S1x128_1 b2) (ix2 p q) = b2 (ix1 q) := by
    rw [Cert.HostForms.host_row_repeat_apply, Cert.HostForms.host_row_apply]
  rw [ValueIdx.addf_apply, hL, hR, hb, row_cast_apply]
  refine congrArg (· + b2 (ix1 q)) ?_
  exact layer_swap _ (fun e k => H (ix2 (srcRow ei e) k)) (fun e => nrm (ix1 e)) (fun k => W2 (ix2 k q))
    (fun e k => hH _) (fun e => hn _) (fun k => hW2 _)

/-- THE BRIDGE: on finite inputs the kernel's result and the reference's are one array. -/
theorem out_eq (x : FVec Ideal S50000x128 .f32) (ei : IVec S2x800000 32) (ew : FVec Ideal S800000 .f32) (W1 : FVec Ideal S128x64 .f32)
    (b1 : FVec Ideal S64 .f32) (W2 : FVec Ideal S64x128 .f32) (b2 : FVec Ideal S128 .f32)
    (hx : ∀ i, IsReal (x i)) (hew : ∀ i, IsReal (ew i)) (hW1 : ∀ i, IsReal (W1 i)) (hb1 : ∀ i, IsReal (b1 i)) (hW2 : ∀ i, IsReal (W2 i)) :
    kernelOut x ei ew W1 b1 W2 b2 = refOut (F := Ideal) x ei ew W1 b1 W2 b2 := by
  have hn : ∀ i, IsReal (coeff (F := Ideal) ei ew i) := coeff_real ei ew hew
  have hh1 : ∀ i, IsReal (mm (a := 50000) (n := 128) (b := 64) x W1 i) := fun i =>
    isReal_sum _ _ fun k _ => (hx _).mul (hW1 _)
  have hH : ∀ i, IsReal (hidden (F := Ideal) (mm (a := 50000) (n := 128) (b := 64) x W1) ei (coeff ei ew) b1 i) :=
    hidden_real _ ei _ b1 hh1 hn hb1
  funext i
  obtain ⟨p, q, rfl⟩ : ∃ (p : Fin 50000) (q : Fin 128), i = ix2 p q := ⟨i 0, i 1, eq_ix2 i⟩
  unfold refOut
  rw [first_dot]
  exact second_layer _ ei _ W2 b2 hH hn hW2 p q

end Cert.Gcn

end
-- ==== Proof.lean ====
/-
  The certificate's five claims.

  The two programs: a two-layer graph convolution over 50000 nodes and 850000 weighted edge slots.  Both compute the
  hidden layer H = relu(aggregate(x · W1) + b1) in the same way — the kernel's x · W1 by a tiled product, the
  reference's by one product, equal on the extended reals.  For the second layer the reference computes
  aggregate(H · W2) + b2 and the kernel aggregate(H) · W2 + b2; these agree where every entry is a real number
  (distributivity and an exchange of finite sums), and finite inputs make every entry real: the degrees are finite sums
  of finite weights, and the inverse square root is taken only of positive degrees.

  Frames: each program terminates without a fault and leaves its arguments as launched — for the two kernels by their
  launch over the host stretches and the two tiled regions, for the reference by its run read back.  The idealization
  rewrote nothing, so there is nothing to preserve.  The equivalence: the kernel's run names its result array's final
  contents, which are the kernel's function of the launch arguments; the reference's run ends at its composed term,
  which is the reference's function; the arguments agree; the two functions agree on finite inputs.
-/
import proofs.«146719_j38500086841928_2_alg».proof.Defs
import proofs.«146719_j38500086841928_2_alg».proof.Proof.Gen.Kernel
import proofs.«146719_j38500086841928_2_alg».proof.Proof.Gen.Kernel.Skeleton
import proofs.«146719_j38500086841928_2_alg».proof.Proof.Gen.Kernel.Launch
import proofs.«146719_j38500086841928_2_alg».proof.Proof.Gen.Kernel.Points
import proofs.«146719_j38500086841928_2_alg».proof.Proof.Gen.Kernel.Frame
import proofs.«146719_j38500086841928_2_alg».proof.Proof.Gen.KernelIdeal
import proofs.«146719_j38500086841928_2_alg».proof.Proof.Gen.KernelIdeal.Skeleton
import proofs.«146719_j38500086841928_2_alg».proof.Proof.Gen.KernelIdeal.Launch
import proofs.«146719_j38500086841928_2_alg».proof.Proof.Gen.KernelIdeal.Points
import proofs.«146719_j38500086841928_2_alg».proof.Proof.Gen.KernelIdeal.Frame
import proofs.«146719_j38500086841928_2_alg».proof.Proof.Gen.ReferenceIdeal
import proofs.«146719_j38500086841928_2_alg».proof.Proof.Gen.Pre_finite_inputs
import proofs.«146719_j38500086841928_2_alg».proof.Proof.Gen.ReferenceIdeal.Run
import proofs.«146719_j38500086841928_2_alg».proof.Proof.KernelRun
import proofs.«146719_j38500086841928_2_alg».proof.Proof.KernelValue
import proofs.«146719_j38500086841928_2_alg».proof.Proof.RefTerm
import proofs.«146719_j38500086841928_2_alg».proof.Proof.FiniteInputs
import proofs.«146719_j38500086841928_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, of which the kernel's are finite, both programs end with the same result. -/
theorem algebraic : Cert.algebraic_KernelIdeal_ReferenceIdeal := by
  intro m ρ m' ρ' hpre hagree
  refine ⟨fun c => Cert.Gcn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gcn.kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.Gcn.ref_term, a0, a1, a2, a3, a4, a5, a6]
    obtain ⟨hx, hew, hW1, hb1, hW2, -⟩ := Cert.FiniteInputs.reals_of_pre _ _ _ _ _ _ _ (hpre c)
    exact (Cert.Gcn.out_eq _ _ _ _ _ _ _ hx hew hW1 hb1 hW2).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
